-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S2x1250000 : Shape := ⟨2, ![2, 1250000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x40 .f32) (main_arg4 : FVec F S40 .f32) (main_arg5 : IVec S2x1250000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg3
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S2x1250000 : Shape := ⟨2, ![2, 1250000]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S100000x64 : Shape := ⟨2, ![100000, 64]⟩
abbrev S4000x128 : Shape := ⟨2, ![4000, 128]⟩
abbrev S4000x64 : Shape := ⟨2, ![4000, 64]⟩
abbrev S1350000x64 : Shape := ⟨2, ![1350000, 64]⟩
abbrev S1x64 : Shape := ⟨2, ![1, 64]⟩
abbrev S100000x40 : Shape := ⟨2, ![100000, 40]⟩
abbrev S4000x40 : Shape := ⟨2, ![4000, 40]⟩
abbrev S1350000x40 : Shape := ⟨2, ![1350000, 40]⟩
abbrev S1x40 : Shape := ⟨2, ![1, 40]⟩

abbrev nBuf : Space → Nat
  | .hbm => 77
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x40, .f32⟩
  | .hbm, ⟨4, _⟩ => ⟨S40, .f32⟩
  | .hbm, ⟨5, _⟩ => ⟨S2x1250000, .i32⟩
  | .hbm, ⟨6, _⟩ => ⟨S100000, .i32⟩
  | .hbm, ⟨7, _⟩ => ⟨S1x1250000, .i32⟩
  | .hbm, ⟨8, _⟩ => ⟨S1250000, .i32⟩
  | .hbm, ⟨9, _⟩ => ⟨S1350000, .i32⟩
  | .hbm, ⟨10, _⟩ => ⟨S1x1250000, .i32⟩
  | .hbm, ⟨11, _⟩ => ⟨S1250000, .i32⟩
  | .hbm, ⟨12, _⟩ => ⟨S1350000, .i32⟩
  | .hbm, ⟨13, _⟩ => ⟨S_, .f32⟩
  | .hbm, ⟨14, _⟩ => ⟨S1350000, .f32⟩
  | .hbm, ⟨15, _⟩ => ⟨S_, .f32⟩
  | .hbm, ⟨16, _⟩ => ⟨S100000, .f32⟩
  | .hbm, ⟨17, _⟩ => ⟨S1350000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1350000, .i32⟩
  | .hbm, ⟨22, _⟩ => ⟨S1350000, .i1⟩
  | .hbm, ⟨23, _⟩ => ⟨S_, .i32⟩
  | .hbm, ⟨24, _⟩ => ⟨S1350000, .i32⟩
  | .hbm, ⟨25, _⟩ => ⟨S1350000, .i32⟩
  | .hbm, ⟨26, _⟩ => ⟨S1350000, .i32⟩
  | .hbm, ⟨27, _⟩ => ⟨S1350000x1, .i32⟩
  | .hbm, ⟨28, _⟩ => ⟨S1350000, .f32⟩
  | .hbm, ⟨29, _⟩ => ⟨S_, .i32⟩
  | .hbm, ⟨30, _⟩ => ⟨S1350000, .i32⟩
  | .hbm, ⟨31, _⟩ => ⟨S1350000, .i1⟩
  | .hbm, ⟨32, _⟩ => ⟨S_, .i32⟩
  | .hbm, ⟨33, _⟩ => ⟨S1350000, .i32⟩
  | .hbm, ⟨34, _⟩ => ⟨S1350000, .i32⟩
  | .hbm, ⟨35, _⟩ => ⟨S1350000, .i32⟩
  | .hbm, ⟨36, _⟩ => ⟨S1350000x1, .i32⟩
  | .hbm, ⟨37, _⟩ => ⟨S1350000, .f32⟩
  | .hbm, ⟨38, _⟩ => ⟨S1350000, .f32⟩
  | .hbm, ⟨39, _⟩ => ⟨S100000x64, .f32⟩
  | .hbm, ⟨40, _⟩ => ⟨S_, .i32⟩
  | .hbm, ⟨41, _⟩ => ⟨S1350000, .i32⟩
  | .hbm, ⟨42, _⟩ => ⟨S1350000, .i1⟩
  | .hbm, ⟨43, _⟩ => ⟨S_, .i32⟩
  | .hbm, ⟨44, _⟩ => ⟨S1350000, .i32⟩
  | .hbm, ⟨45, _⟩ => ⟨S1350000, .i32⟩
  | .hbm, ⟨46, _⟩ => ⟨S1350000, .i32⟩
  | .hbm, ⟨47, _⟩ => ⟨S1350000x1, .i32⟩
  | .hbm, ⟨48, _⟩ => ⟨S1350000x64, .f32⟩
  | .hbm, ⟨49, _⟩ => ⟨S1350000x1, .f32⟩
  | .hbm, ⟨50, _⟩ => ⟨S1350000x64, .f32⟩
  | .hbm, ⟨51, _⟩ => ⟨S1350000x64, .f32⟩
  | .hbm, ⟨52, _⟩ => ⟨S_, .f32⟩
  | .hbm, ⟨53, _⟩ => ⟨S100000x64, .f32⟩
  | .hbm, ⟨54, _⟩ => ⟨S1350000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x40, .f32⟩
  | .hbm, ⟨59, _⟩ => ⟨S_, .i32⟩
  | .hbm, ⟨60, _⟩ => ⟨S1350000, .i32⟩
  | .hbm, ⟨61, _⟩ => ⟨S1350000, .i1⟩
  | .hbm, ⟨62, _⟩ => ⟨S_, .i32⟩
  | .hbm, ⟨63, _⟩ => ⟨S1350000, .i32⟩
  | .hbm, ⟨64, _⟩ => ⟨S1350000, .i32⟩
  | .hbm, ⟨65, _⟩ => ⟨S1350000, .i32⟩
  | .hbm, ⟨66, _⟩ => ⟨S1350000x1, .i32⟩
  | .hbm, ⟨67, _⟩ => ⟨S1350000x40, .f32⟩
  | .hbm, ⟨68, _⟩ => ⟨S1350000x1, .f32⟩
  | .hbm, ⟨69, _⟩ => ⟨S1350000x40, .f32⟩
  | .hbm, ⟨70, _⟩ => ⟨S1350000x40, .f32⟩
  | .hbm, ⟨71, _⟩ => ⟨S_, .f32⟩
  | .hbm, ⟨72, _⟩ => ⟨S100000x40, .f32⟩
  | .hbm, ⟨73, _⟩ => ⟨S1350000x1, .i32⟩
  | .hbm, ⟨74, _⟩ => ⟨S100000x40, .f32⟩
  | .hbm, ⟨75, _⟩ => ⟨S1x40, .f32⟩
  | .hbm, ⟨76, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S64x40, .f32⟩
  | .local _ .vmem, ⟨13, _⟩ => ⟨S4000x40, .f32⟩
  | .local _ .vmem, ⟨14, _⟩ => ⟨S4000x40, .f32⟩
  | .local _ .vmem, ⟨15, _⟩ => ⟨S4000x40, .f32⟩
  | .local _ .vmem, ⟨16, _⟩ => ⟨S4000x40, .f32⟩
  | .local _ .vmem, ⟨17, _⟩ => ⟨S1x40, .f32⟩
  | .local _ .vmem, ⟨18, _⟩ => ⟨S4000x40, .f32⟩
  | .local _ .vmem, ⟨19, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x40_S64x40_0_0 : ∀ a, (![0, 0] : Fin 2 → Nat) a + S64x40.size a ≤ S64x40.size a
  h_S64x40 : 0 < S64x40.numel
  inb_S4000x40_S4000x40_0_0 : ∀ a, (![0, 0] : Fin 2 → Nat) a + S4000x40.size a ≤ S4000x40.size a
  h_S4000x40 : 0 < S4000x40.numel
  bcast_S1350000x1_S1350000x40_0_1 : S1350000x1.BroadcastsInDim S1350000x40 (![0, 1] : Fin 2 → Fin S1350000x40.rank)
  bcast_S_S100000x40 : S_.BroadcastsInDim S100000x40 (![] : Fin 0 → Fin S100000x40.rank)
  shapeCasts_S40_S1x40 : S40.ShapeCasts S1x40
  shapeCasts_S4000x40_S4000x40 : S4000x40.ShapeCasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S4000x128_S128x64_S4000x64_1_0_0_1_n_n_wf : DotDims.WF S4000x128 S128x64 S4000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S4000x64_S64x40_S4000x40_1_0_0_1_n_n_wf : DotDims.WF S4000x64 S64x40 S4000x40 [1] [0] [0] [1] [] []
  gather_S100000x40_S1350000x1_S1350000x40_1_0_n_n_0_1_140_wf : GatherDims.WF S100000x40 S1350000x1 S1350000x40 [1] [0] [] [0] [] 1 ![1, 40]
  scatter_S100000x40_S1350000x1_S1350000x40_1_0_0_1_wf : ScatterDims.WF S100000x40 S1350000x1 S1350000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x40.size a ≤ S100000x40.size a
  hwx2_2 : ∀ i : grid2.Coords, EltTy.bits .f32 = 32 ∨ (Rect.block (s := S100000x40) S4000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x40.size a ≤ S100000x40.size a
  hwx3_0 : ∀ i : grid3.Coords, EltTy.bits .f32 = 32 ∨ (Rect.block (s := S100000x40) S4000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x40.size a ≤ S100000x40.size a
  hwx3_2 : ∀ i : grid3.Coords, EltTy.bits .f32 = 32 ∨ (Rect.block (s := S100000x40) S4000x40.size (cc3_transform_2 i) (hinb3_2 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf
def gather_S100000x40_S1350000x1_S1350000x40_1_0_n_n_0_1_140 : GatherDims S100000x40 S1350000x1 S1350000x40 where
  offsetDims := [1]
  collapsedSliceDims := [0]
  operandBatchingDims := []
  startIndicesBatchingDims := []
  startIndexMap := [0]
  indexVectorDim := 1
  sliceSizes := ![1, 40]
  wf := gather_S100000x40_S1350000x1_S1350000x40_1_0_n_n_0_1_140_wf
def scatter_S100000x40_S1350000x1_S1350000x40_1_0_0_1 : ScatterDims S100000x40 S1350000x1 S1350000x40 where
  updateWindowDims := [1]
  insertedWindowDims := [0]
  scatterDimsToOperandDims := [0]
  indexVectorDim := 1
  wf := scatter_S100000x40_S1350000x1_S1350000x40_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S4000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S4000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S4000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S2x1250000 : Shape := ⟨2, ![2, 1250000]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S100000x64 : Shape := ⟨2, ![100000, 64]⟩
abbrev S1350000x64 : Shape := ⟨2, ![1350000, 64]⟩
abbrev S1x64 : Shape := ⟨2, ![1, 64]⟩
abbrev S100000x40 : Shape := ⟨2, ![100000, 40]⟩
abbrev S1350000x40 : Shape := ⟨2, ![1350000, 40]⟩
abbrev S1x40 : Shape := ⟨2, ![1, 40]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x40, .f32⟩
  | .hbm, ⟨4, _⟩ => ⟨S40, .f32⟩
  | .hbm, ⟨5, _⟩ => ⟨S2x1250000, .i32⟩
  | .hbm, ⟨6, _⟩ => ⟨S100000, .i32⟩
  | .hbm, ⟨7, _⟩ => ⟨S1x1250000, .i32⟩
  | .hbm, ⟨8, _⟩ => ⟨S1250000, .i32⟩
  | .hbm, ⟨9, _⟩ => ⟨S1350000, .i32⟩
  | .hbm, ⟨10, _⟩ => ⟨S1x1250000, .i32⟩
  | .hbm, ⟨11, _⟩ => ⟨S1250000, .i32⟩
  | .hbm, ⟨12, _⟩ => ⟨S1350000, .i32⟩
  | .hbm, ⟨13, _⟩ => ⟨S_, .f32⟩
  | .hbm, ⟨14, _⟩ => ⟨S1350000, .f32⟩
  | .hbm, ⟨15, _⟩ => ⟨S_, .f32⟩
  | .hbm, ⟨16, _⟩ => ⟨S100000, .f32⟩
  | .hbm, ⟨17, _⟩ => ⟨S1350000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1350000, .i32⟩
  | .hbm, ⟨22, _⟩ => ⟨S1350000, .i1⟩
  | .hbm, ⟨23, _⟩ => ⟨S_, .i32⟩
  | .hbm, ⟨24, _⟩ => ⟨S1350000, .i32⟩
  | .hbm, ⟨25, _⟩ => ⟨S1350000, .i32⟩
  | .hbm, ⟨26, _⟩ => ⟨S1350000, .i32⟩
  | .hbm, ⟨27, _⟩ => ⟨S1350000x1, .i32⟩
  | .hbm, ⟨28, _⟩ => ⟨S1350000, .f32⟩
  | .hbm, ⟨29, _⟩ => ⟨S_, .i32⟩
  | .hbm, ⟨30, _⟩ => ⟨S1350000, .i32⟩
  | .hbm, ⟨31, _⟩ => ⟨S1350000, .i1⟩
  | .hbm, ⟨32, _⟩ => ⟨S_, .i32⟩
  | .hbm, ⟨33, _⟩ => ⟨S1350000, .i32⟩
  | .hbm, ⟨34, _⟩ => ⟨S1350000, .i32⟩
  | .hbm, ⟨35, _⟩ => ⟨S1350000, .i32⟩
  | .hbm, ⟨36, _⟩ => ⟨S1350000x1, .i32⟩
  | .hbm, ⟨37, _⟩ => ⟨S1350000, .f32⟩
  | .hbm, ⟨38, _⟩ => ⟨S1350000, .f32⟩
  | .hbm, ⟨39, _⟩ => ⟨S100000x64, .f32⟩
  | .hbm, ⟨40, _⟩ => ⟨S_, .i32⟩
  | .hbm, ⟨41, _⟩ => ⟨S1350000, .i32⟩
  | .hbm, ⟨42, _⟩ => ⟨S1350000, .i1⟩
  | .hbm, ⟨43, _⟩ => ⟨S_, .i32⟩
  | .hbm, ⟨44, _⟩ => ⟨S1350000, .i32⟩
  | .hbm, ⟨45, _⟩ => ⟨S1350000, .i32⟩
  | .hbm, ⟨46, _⟩ => ⟨S1350000, .i32⟩
  | .hbm, ⟨47, _⟩ => ⟨S1350000x1, .i32⟩
  | .hbm, ⟨48, _⟩ => ⟨S1350000x64, .f32⟩
  | .hbm, ⟨49, _⟩ => ⟨S1350000x1, .f32⟩
  | .hbm, ⟨50, _⟩ => ⟨S1350000x64, .f32⟩
  | .hbm, ⟨51, _⟩ => ⟨S1350000x64, .f32⟩
  | .hbm, ⟨52, _⟩ => ⟨S_, .f32⟩
  | .hbm, ⟨53, _⟩ => ⟨S100000x64, .f32⟩
  | .hbm, ⟨54, _⟩ => ⟨S1350000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x40, .f32⟩
  | .hbm, ⟨63, _⟩ => ⟨S_, .i32⟩
  | .hbm, ⟨64, _⟩ => ⟨S1350000, .i32⟩
  | .hbm, ⟨65, _⟩ => ⟨S1350000, .i1⟩
  | .hbm, ⟨66, _⟩ => ⟨S_, .i32⟩
  | .hbm, ⟨67, _⟩ => ⟨S1350000, .i32⟩
  | .hbm, ⟨68, _⟩ => ⟨S1350000, .i32⟩
  | .hbm, ⟨69, _⟩ => ⟨S1350000, .i32⟩
  | .hbm, ⟨70, _⟩ => ⟨S1350000x1, .i32⟩
  | .hbm, ⟨71, _⟩ => ⟨S1350000x40, .f32⟩
  | .hbm, ⟨72, _⟩ => ⟨S1350000x1, .f32⟩
  | .hbm, ⟨73, _⟩ => ⟨S1350000x40, .f32⟩
  | .hbm, ⟨74, _⟩ => ⟨S1350000x40, .f32⟩
  | .hbm, ⟨75, _⟩ => ⟨S_, .f32⟩
  | .hbm, ⟨76, _⟩ => ⟨S100000x40, .f32⟩
  | .hbm, ⟨77, _⟩ => ⟨S1350000x1, .i32⟩
  | .hbm, ⟨78, _⟩ => ⟨S100000x40, .f32⟩
  | .hbm, ⟨79, _⟩ => ⟨S1x40, .f32⟩
  | .hbm, ⟨80, _⟩ => ⟨S100000x40, .f32⟩
  | .hbm, ⟨81, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1350000x1_S1350000x40_0_1 : S1350000x1.BroadcastsInDim S1350000x40 (![0, 1] : Fin 2 → Fin S1350000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x128_S128x64_S100000x64_1_0_0_1_n_n_wf : DotDims.WF S100000x128 S128x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S100000x64_S64x40_S100000x40_1_0_0_1_n_n_wf : DotDims.WF S100000x64 S64x40 S100000x40 [1] [0] [0] [1] [] []
  gather_S100000x40_S1350000x1_S1350000x40_1_0_n_n_0_1_140_wf : GatherDims.WF S100000x40 S1350000x1 S1350000x40 [1] [0] [] [0] [] 1 ![1, 40]
  scatter_S100000x40_S1350000x1_S1350000x40_1_0_0_1_wf : ScatterDims.WF S100000x40 S1350000x1 S1350000x40 [1] [0] [0] 1

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1350000x1_S1350000x40_1_0_n_n_0_1_140 : GatherDims S100000x40 S1350000x1 S1350000x40 where
  offsetDims := [1]
  collapsedSliceDims := [0]
  operandBatchingDims := []
  startIndicesBatchingDims := []
  startIndexMap := [0]
  indexVectorDim := 1
  sliceSizes := ![1, 40]
  wf := gather_S100000x40_S1350000x1_S1350000x40_1_0_n_n_0_1_140_wf
def scatter_S100000x40_S1350000x1_S1350000x40_1_0_0_1 : ScatterDims S100000x40 S1350000x1 S1350000x40 where
  updateWindowDims := [1]
  insertedWindowDims := [0]
  scatterDimsToOperandDims := [0]
  indexVectorDim := 1
  wf := scatter_S100000x40_S1350000x1_S1350000x40_1_0_0_1_wf

class Facts : Prop extends Facts₀ where

variable [Facts]
-- ==== Proof.KernelRun.lean ====
/-
  The idealized kernel's run with its final memory named.

  The program is seven segments in a row: host operations, the first linear call, host operations, the first epilogue call,
  the second linear call, host operations, the second epilogue call. Every weakly fair execution terminates, and at the end
  every buffer the program keeps holds what the fold through the seven segments leaves in it (the generated frame's last
  boundary contents): the host stretches apply their operations in order, and each call replaces its result array by what
  its write-backs leave and touches nothing else.
-/
import proofs.«112295_j738734375374_1_alg».proof.Proof.Gen.KernelIdeal.Frame

set_option maxRecDepth 16384

noncomputable section

namespace Cert.Gcn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and every buffer it keeps ends at the last boundary's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result array after the run is what the second epilogue call's write-backs leave. -/
theorem result_named (c : Dev nD) :
    W7 m ρ c (Proc.devRef .tc main_v58) = (dat3 (V6 m ρ) c).arrAt 2 cfg3.N := W7_arr m ρ c 2

end Cert.Gcn.Run

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LayerBodies.lean ====
/-
  The four kernel bodies as functions of the blocks they load, read at one entry of the block they store.

  The two linear bodies multiply a block of 4000 rows by the whole weight matrix: entry (p, q) of the stored block is
  the sum over k of x(p, k) · w(k, q) — the change of format before the product is the identity on the extended reals,
  and the accumulator starts at zero. The two epilogue bodies add the bias row to every row of the block; the first one
  then takes the maximum with zero.
-/
import proofs.«112295_j738734375374_1_alg».proof.Proof.Gen.KernelIdeal.Skeleton
import proofs.«112295_j738734375374_1_alg».proof.Proof.LibMatmulPlain
import Idealize.ShloMosaic.Lib.ValueIdx
import Idealize.ShloMosaic.Lib.ValueLayout
import Idealize.ShloMosaic.Lib.Pipeline.Value

noncomputable section

open scoped BigOperators

namespace Cert.Gcn.Bodies

open Idealize.ShloMosaic Idealize.ShloMosaic.ValueIdx Cert.KernelIdeal Cert.KernelIdeal.Gen

/-- The first linear body: a block of 4000 rows of the features times the 128 × 64 weights. -/
theorem linear1_apply (x : Vec Ideal S4000x128 .f32) (w : Vec Ideal S128x64 .f32) (p : Fin 4000) (q : Fin 64) :
    k0_pay1 (F := Ideal) x w (ix2 p q) = ∑ k : Fin 128, x (ix2 p k) * w (ix2 k q) := by
  unfold k0_pay1
  exact Cert.LibMatmulPlain.matmul_plain_zero_apply (M := 4000) (K := 128) (N := 64)
    dot_S4000x128_S128x64_S4000x64_1_0_0_1_n_n rfl none _ _ p q

/-- The second linear body: a block of 4000 rows of the hidden features times the 64 × 40 weights. -/
theorem linear2_apply (x : Vec Ideal S4000x64 .f32) (w : Vec Ideal S64x40 .f32) (p : Fin 4000) (q : Fin 40) :
    k2_pay1 (F := Ideal) x w (ix2 p q) = ∑ k : Fin 64, x (ix2 p k) * w (ix2 k q) := by
  unfold k2_pay1
  rw [shapeCast_self]
  exact Cert.LibMatmulPlain.matmul_plain_zero_apply (M := 4000) (K := 64) (N := 40)
    dot_S4000x64_S64x40_S4000x40_1_0_0_1_n_n rfl none _ _ p q

variable {F : FTy → Type} [FloatOps F]

/-- The first epilogue: the bias row added to every row of the block, then the maximum with zero. -/
theorem biasRelu_apply (h : Vec F S4000x64 .f32) (b : Vec F S1x64 .f32) (p : Fin 4000) (q : Fin 64) :
    k1_pay1 (F := F) h b (ix2 p q)
      = FloatOps.maximumf (FloatOps.addf (h (ix2 p q)) (b (ix2 (0 : Fin 1) q))) (FloatOps.ofBits .f32 0x00000000#32) := by
  unfold k1_pay1
  rw [shapeCast_self, shapeCast_self]
  show FloatOps.maximumf (FloatOps.addf (h (ix2 p q)) (broadcastTo S4000x64 b broadcasts_S1x64_S4000x64 (ix2 p q))) _ = _
  rw [broadcastTo_1b_ab_apply]
  rfl

/-- The second epilogue: the bias row added to every row of the block. -/
theorem bias_apply (h : Vec F S4000x40 .f32) (b : Vec F S1x40 .f32) (p : Fin 4000) (q : Fin 40) :
    k3_pay1 (F := F) h b (ix2 p q) = FloatOps.addf (h (ix2 p q)) (b (ix2 (0 : Fin 1) q)) := by
  unfold k3_pay1
  rw [shapeCast_self, shapeCast_self]
  show FloatOps.addf (h (ix2 p q)) (broadcastTo S4000x40 b broadcasts_S1x40_S4000x40 (ix2 p q)) = _
  rw [broadcastTo_1b_ab_apply]

end Cert.Gcn.Bodies

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«112295_j738734375374_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.Linear1Blocks.lean ====
/-
  The first linear layer, from row blocks to the whole array.

  The call walks the 100000 rows of the features in 25 blocks of 4000 rows; at block t it loads rows 4000·t … 4000·t + 3999
  and the whole 128 × 64 weight matrix, and writes back the block's product as rows 4000·t … 4000·t + 3999 of the result.
  A row of a matrix product depends only on the same row of the left factor, so each written block is that block of the
  ONE product of the whole feature matrix with the weights; the 25 blocks tile the result, so after the call the result
  array is that product.
-/
import proofs.«112295_j738734375374_1_alg».proof.Proof.Gen.KernelIdeal.Frame
import proofs.«112295_j738734375374_1_alg».proof.Proof.LayerBodies
import proofs.«112295_j738734375374_1_alg».proof.Proof.LibDotGeneralPlain
import Idealize.ShloMosaic.Lib.Pipeline.Value

set_option maxRecDepth 16384

noncomputable section

open scoped BigOperators

namespace Cert.Gcn.Linear1

open Idealize.ShloMosaic Idealize.ShloMosaic.TcCoe Idealize.ShloMosaic.ValueIdx Idealize.SL.Sem
open Idealize.ShloMosaic.Pipeline (Dat)
open Cert.KernelIdeal Cert.KernelIdeal.Gen Cert.LibDotGeneralPlain

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at point t: the features' and the result's at row block t, the weights' at the origin. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the features' block at point t is entry (4000·t + p, k) of the feature matrix. -/
theorem feature_block (c : Dev nD) (t : Fin cfg0.N) (p : Fin 4000) (k : Fin 128) (r : Fin 100000) (hr : r.val = t.val * 4000 + p.val) :
    (iblk0 V c 0 t : Vec Ideal S4000x128 .f32) (ix2 p k) = (V c main_arg0 : S100000x128.Idx → EReal) (ix2 r k) := by
  obtain ⟨e0, e1, -⟩ := block_index t
  unfold iblk0
  rw [View.read_apply]
  show V c main_arg0 _ = V c main_arg0 _
  refine congrArg _ (funext fun a => Fin.ext ?_)
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

/-- The weights' block at every point is the whole weight matrix. -/
theorem weight_block (c : Dev nD) (t : Fin cfg0.N) (k : Fin 128) (q : Fin 64) :
    (iblk0 V c 1 t : Vec Ideal S128x64 .f32) (ix2 k q) = (V c main_arg1 : S128x64.Idx → EReal) (ix2 k q) := by
  obtain ⟨-, -, e2, e3, -⟩ := block_index t
  unfold iblk0
  rw [View.read_apply]
  show V c main_arg1 _ = V c main_arg1 _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- What point t writes back is block t of the product of the whole feature matrix with the weights. -/
theorem flushed_eq (c : Dev nD) (t : Fin cfg0.N) :
    (dat0 V c).flushed 2 t = ((cfg0.win 2).blk t).view.read (Elt Ideal)
      (matProd (M := 100000) (K := 128) (N := 64) (V c main_arg0) (V c main_arg1)) := by
  show (cfg0.win 2).cut (grid0.coords t) ((dat0 V c).after 2 t) = _
  rw [after0_2]
  unfold out0_2
  rw [View.canon_unit_zero zero_offsets]
  simp only [View.ld_unit_zero (S := S4000x128) zero_offsets, View.ld_unit_zero (S := S128x64) zero_offsets]
  funext j
  obtain ⟨p, q, rfl⟩ : ∃ (p : Fin 4000) (q : Fin 64), j = ix2 p q := ⟨j 0, j 1, eq_ix2 j⟩
  show k0_pay1 (F := Ideal) (iblk0 V c 0 t) (iblk0 V c 1 t) (ix2 p q)
    = matProd (V c main_arg0) (V c main_arg1) (((cfg0.win 2).blk t).view.emb (ix2 p q))
  refine (Bodies.linear1_apply _ _ p q).trans ?_
  obtain ⟨-, -, -, -, e4, e5⟩ := block_index t
  have h0 : ((((cfg0.win 2).blk t).view.emb (ix2 p q)) 0).val = t.val * 4000 + p.val := by
    show win0_2.index t (0 : Fin 2) * 4000 + 1 * p.val = _; rw [e4]; omega
  have h1 : (((cfg0.win 2).blk t).view.emb (ix2 p q)) 1 = q :=
    Fin.ext (by show win0_2.index t (1 : Fin 2) * 64 + 1 * q.val = q.val; rw [e5]; omega)
  unfold matProd
  refine Finset.sum_congr rfl fun k _ => ?_
  rw [feature_block V c t p k _ h0, weight_block V c t k q, h1]

/-- Row r of the result lies in block r / 4000. -/
theorem mem_block (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v27).slice (win0_2.rect t)).set ↔ _
  rw [View.set_slice_whole, Rect.mem_set_unit]
  exact Iff.rfl

/-- The 25 row blocks tile the result. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  obtain ⟨-, -, -, -, e4, e5⟩ := block_index t
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000
              rw [e4]; show (i 0).val / 4000 * 4000 ≤ (i 0).val ∧ (i 0).val < (i 0).val / 4000 * 4000 + 4000; omega
  | ⟨1, _⟩ => show win0_2.index t (1 : Fin 2) * 64 ≤ (i 1).val ∧ (i 1).val < win0_2.index t (1 : Fin 2) * 64 + 64
              rw [e5]; omega

/-- After the call the result array is the product of the whole feature matrix, as the call found it, with the weights. -/
theorem result (c : Dev nD) :
    (dat0 V c).arrAt 2 cfg0.N = matProd (M := 100000) (K := 128) (N := 64) (V c main_arg0) (V c main_arg1) :=
  (dat0 V c).arrAt_eq_of_cover 2 _ (fun t _ => flushed_eq V c t) covered

/-- The same, with the two arrays the call found given by name. -/
theorem result_of (c : Dev nD) (x : S100000x128.Idx → EReal) (w : S128x64.Idx → EReal)
    (hx : V c main_arg0 = x) (hw : V c main_arg1 = w) :
    (dat0 V c).arrAt 2 cfg0.N = matProd (M := 100000) (K := 128) (N := 64) x w := by
  rw [result, hx, hw]

end Cert.Gcn.Linear1

end
-- ==== Proof.Stages1.lean ====
/-
  The first layer's product in the idealized kernel, and what the host operations before it leave.

  Both programs compute the edge lists with self-loops, the degrees and the edge weights by the same host operations from
  the edge array; the kernel program's buffers hold, before its first call, the values of the reference's stages of the
  same name. The first call leaves the product of the feature matrix with the first weights, which is the reference's
  first matrix product; nothing else changes.
-/
import proofs.«112295_j738734375374_1_alg».proof.Proof.Gen.KernelIdeal.Frame
import proofs.«112295_j738734375374_1_alg».proof.Proof.Gen.ReferenceIdeal.Read
import proofs.«112295_j738734375374_1_alg».proof.Proof.Linear1Blocks
import proofs.«112295_j738734375374_1_alg».proof.Proof.LibDotGeneralPlain
import Idealize.ShloMosaic.Lib.StableHlo.Run

set_option maxRecDepth 16384

noncomputable section

namespace Cert.Gcn.Stages

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-! ## Before the first call: the edge lists, the edge weights, the arguments -/

/-- The source list with self-loops. -/
theorem src1 : W1 m ρ c (Proc.devRef .tc main_v3) = val_main_v3 (F := Ideal) (m ((c : Thread nD τ).loc main_arg5)) := by
  show StableHlo.after hostOps0 (W0 m ρ c) (Proc.devRef .tc main_v3) = _
  dsimp only [hostOps0]
  after_results
  rfl

/-- The destination list with self-loops. -/
theorem dst1 : W1 m ρ c (Proc.devRef .tc main_v6) = val_main_v6 (F := Ideal) (m ((c : Thread nD τ).loc main_arg5)) := by
  show StableHlo.after hostOps0 (W0 m ρ c) (Proc.devRef .tc main_v6) = _
  dsimp only [hostOps0]
  after_results
  rfl

set_option maxHeartbeats 4000000 in
/-- The edge weights: the product of the two end points' inverse square-root degrees. -/
theorem norm1 : W1 m ρ c (Proc.devRef .tc main_v26) = val_main_v26 (F := Ideal) (m ((c : Thread nD τ).loc main_arg5)) := by
  show StableHlo.after hostOps0 (W0 m ρ c) (Proc.devRef .tc main_v26) = _
  dsimp only [hostOps0]
  after_results_simp
  rfl

theorem arg0_1 : W1 m ρ c (Proc.devRef .tc main_arg0) = (m ((c : Thread nD τ).loc main_arg0)) := by
  show StableHlo.after hostOps0 (W0 m ρ c) (Proc.devRef .tc main_arg0) = _
  dsimp only [hostOps0]
  after_results

theorem arg1_1 : W1 m ρ c (Proc.devRef .tc main_arg1) = (m ((c : Thread nD τ).loc main_arg1)) := by
  show StableHlo.after hostOps0 (W0 m ρ c) (Proc.devRef .tc main_arg1) = _
  dsimp only [hostOps0]
  after_results

theorem arg2_1 : W1 m ρ c (Proc.devRef .tc main_arg2) = (m ((c : Thread nD τ).loc main_arg2)) := by
  show StableHlo.after hostOps0 (W0 m ρ c) (Proc.devRef .tc main_arg2) = _
  dsimp only [hostOps0]
  after_results

theorem arg3_1 : W1 m ρ c (Proc.devRef .tc main_arg3) = (m ((c : Thread nD τ).loc main_arg3)) := by
  show StableHlo.after hostOps0 (W0 m ρ c) (Proc.devRef .tc main_arg3) = _
  dsimp only [hostOps0]
  after_results

theorem arg4_1 : W1 m ρ c (Proc.devRef .tc main_arg4) = (m ((c : Thread nD τ).loc main_arg4)) := by
  show StableHlo.after hostOps0 (W0 m ρ c) (Proc.devRef .tc main_arg4) = _
  dsimp only [hostOps0]
  after_results

/-! ## After the first linear call -/

/-- The call leaves the reference's first product. -/
theorem lin1_2 : W2 m ρ c (Proc.devRef .tc main_v27) = val_main_v27 (F := Ideal) (m ((c : Thread nD τ).loc main_arg0)) (m ((c : Thread nD τ).loc main_arg1)) := by
  refine (W2_arr m ρ c 2).trans ?_
  rw [Linear1.result]
  show Cert.LibDotGeneralPlain.matProd (W1 m ρ c (Proc.devRef .tc main_arg0)) (W1 m ρ c (Proc.devRef .tc main_arg1)) = _
  rw [arg0_1 m ρ c, arg1_1 m ρ c]
  exact (Cert.LibDotGeneralPlain.dotGeneral_plain_eq _ rfl none .single _ _).symm

theorem src2 : W2 m ρ c (Proc.devRef .tc main_v3) = val_main_v3 (F := Ideal) (m ((c : Thread nD τ).loc main_arg5)) :=
  (W2_of_ne m ρ c main_v3 (by decide)).trans (src1 m ρ c)
theorem dst2 : W2 m ρ c (Proc.devRef .tc main_v6) = val_main_v6 (F := Ideal) (m ((c : Thread nD τ).loc main_arg5)) :=
  (W2_of_ne m ρ c main_v6 (by decide)).trans (dst1 m ρ c)
theorem norm2 : W2 m ρ c (Proc.devRef .tc main_v26) = val_main_v26 (F := Ideal) (m ((c : Thread nD τ).loc main_arg5)) :=
  (W2_of_ne m ρ c main_v26 (by decide)).trans (norm1 m ρ c)
theorem arg2_2 : W2 m ρ c (Proc.devRef .tc main_arg2) = (m ((c : Thread nD τ).loc main_arg2)) :=
  (W2_of_ne m ρ c main_arg2 (by decide)).trans (arg2_1 m ρ c)
theorem arg3_2 : W2 m ρ c (Proc.devRef .tc main_arg3) = (m ((c : Thread nD τ).loc main_arg3)) :=
  (W2_of_ne m ρ c main_arg3 (by decide)).trans (arg3_1 m ρ c)
theorem arg4_2 : W2 m ρ c (Proc.devRef .tc main_arg4) = (m ((c : Thread nD τ).loc main_arg4)) :=
  (W2_of_ne m ρ c main_arg4 (by decide)).trans (arg4_1 m ρ c)

end Cert.Gcn.Stages

end
-- ==== Proof.LibRowEpilogue.lean ====
/-
  Adding one row to every row of a matrix, and the entrywise maximum with zero, as functions of whole arrays.

  `addRow h b` adds the one row `b` (an array [1, d]) to every row of `h`; `relu h` takes the maximum of every
  entry with zero. `reluAddRow h b` is `relu (addRow h b)`: a bias followed by a rectifier. Generic in the
  extents n and d and stated for any float interpretation; each comes with its value at an index.
-/
import Idealize.ShloMosaic.PureOps.Vector
import Idealize.ShloMosaic.Lib.ValueIdx

noncomputable section

namespace Cert.LibRowEpilogue

open Idealize.ShloMosaic Idealize.ShloMosaic.ValueIdx

variable {F : FTy → Type} [FloatOps F]

/-- The row `b` added to every row of `h`. -/
def addRow {n d : Nat} (h : (⟨2, ![n, d]⟩ : Shape).Idx → F .f32) (b : (⟨2, ![1, d]⟩ : Shape).Idx → F .f32) :
    (⟨2, ![n, d]⟩ : Shape).Idx → F .f32 :=
  fun i => FloatOps.addf (h i) (b (ix2 (0 : Fin 1) (i 1)))

theorem addRow_apply {n d : Nat} (h : (⟨2, ![n, d]⟩ : Shape).Idx → F .f32) (b : (⟨2, ![1, d]⟩ : Shape).Idx → F .f32)
    (p : Fin n) (q : Fin d) : addRow h b (ix2 p q) = FloatOps.addf (h (ix2 p q)) (b (ix2 (0 : Fin 1) q)) := rfl

theorem addRow_at {n d : Nat} (h : (⟨2, ![n, d]⟩ : Shape).Idx → F .f32) (b : (⟨2, ![1, d]⟩ : Shape).Idx → F .f32)
    (i : (⟨2, ![n, d]⟩ : Shape).Idx) : addRow h b i = FloatOps.addf (h i) (b (ix2 (0 : Fin 1) (i 1))) := rfl

/-- Every entry's maximum with zero. -/
def relu {s : Shape} (h : s.Idx → F .f32) : s.Idx → F .f32 :=
  fun i => FloatOps.maximumf (h i) (FloatOps.ofBits .f32 0x00000000#32)

theorem relu_apply {s : Shape} (h : s.Idx → F .f32) (i : s.Idx) :
    relu h i = FloatOps.maximumf (h i) (FloatOps.ofBits .f32 0x00000000#32) := rfl

/-- The first layer's epilogue: the bias row added to every row, then every entry's maximum with zero. -/
def reluAddRow {n d : Nat} (h : (⟨2, ![n, d]⟩ : Shape).Idx → F .f32) (b : (⟨2, ![1, d]⟩ : Shape).Idx → F .f32) :
    (⟨2, ![n, d]⟩ : Shape).Idx → F .f32 := relu (addRow h b)

theorem reluAddRow_at {n d : Nat} (h : (⟨2, ![n, d]⟩ : Shape).Idx → F .f32) (b : (⟨2, ![1, d]⟩ : Shape).Idx → F .f32)
    (i : (⟨2, ![n, d]⟩ : Shape).Idx) :
    reluAddRow h b i = FloatOps.maximumf (FloatOps.addf (h i) (b (ix2 (0 : Fin 1) (i 1)))) (FloatOps.ofBits .f32 0x00000000#32) := rfl

end Cert.LibRowEpilogue

end
-- ==== Proof.Epilogue1Blocks.lean ====
/-
  The first layer's epilogue (bias, then the maximum with zero), from row blocks to the whole array.

  The call walks the 100000 rows of the aggregated features in 25 blocks of 4000 rows; at block t it loads rows
  4000·t … 4000·t + 3999 and the one bias row, adds the bias row to every row of the block, takes the maximum with zero, and writes the
  block back as rows 4000·t … 4000·t + 3999 of the result. Each entry of the result depends on the same entry of the
  aggregated features and on the bias entry of its column, so each written block is that block of ONE whole-array
  function; the 25 blocks tile the result, so after the call the result array is that function of the two arrays.
  Stated for any float interpretation.
-/
import proofs.«112295_j738734375374_1_alg».proof.Proof.Gen.KernelIdeal.Frame
import proofs.«112295_j738734375374_1_alg».proof.Proof.LayerBodies
import proofs.«112295_j738734375374_1_alg».proof.Proof.LibRowEpilogue
import Idealize.ShloMosaic.Lib.Pipeline.Value

set_option maxRecDepth 16384

noncomputable section

namespace Cert.Gcn.Epilogue1

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- Where each window's block sits at point t: the aggregated features' and the result's at row block t, the bias row's at the origin. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of the aggregated features' block at point t is their entry (4000·t + p, q). -/
theorem agg_block (c : Dev nD) (t : Fin cfg1.N) (p : Fin 4000) (q : Fin 64) (i : S100000x64.Idx)
    (h0 : (i 0).val = t.val * 4000 + p.val) (h1 : (i 1).val = q.val) :
    (iblk1 V c 0 t : Vec F S4000x64 .f32) (ix2 p q) = (V c main_v40 : S100000x64.Idx → F .f32) i := by
  obtain ⟨e0, e1, -⟩ := block_index t
  unfold iblk1
  rw [View.read_apply]
  show V c main_v40 _ = V c main_v40 _
  refine congrArg _ (funext fun a => Fin.ext ?_)
  match a with
  | ⟨0, _⟩ => show win1_0.index t (0 : Fin 2) * 4000 + 1 * p.val = (i 0).val; rw [e0, h0]; omega
  | ⟨1, _⟩ => show win1_0.index t (1 : Fin 2) * 64 + 1 * q.val = (i 1).val; rw [e1, h1]; omega

/-- The bias window's block at every point is the whole bias row. -/
theorem bias_block (c : Dev nD) (t : Fin cfg1.N) (q : Fin 64) :
    (iblk1 V c 1 t : Vec F S1x64 .f32) (ix2 (0 : Fin 1) q) = (V c main_v41 : S1x64.Idx → F .f32) (ix2 (0 : Fin 1) q) := by
  obtain ⟨-, -, e2, e3, -⟩ := block_index t
  unfold iblk1
  rw [View.read_apply]
  show V c main_v41 _ = V c main_v41 _
  refine congrArg _ (funext fun a => Fin.ext ?_)
  match a with
  | ⟨0, _⟩ => show win1_1.index t (0 : Fin 2) * 1 + 1 * 0 = 0; rw [e2]
  | ⟨1, _⟩ => show win1_1.index t (1 : Fin 2) * 64 + 1 * q.val = q.val; rw [e3]; omega

/-- What point t writes back is block t of the epilogue of the whole arrays. -/
theorem flushed_eq (c : Dev nD) (t : Fin cfg1.N) :
    (dat1 V c).flushed 2 t = ((cfg1.win 2).blk t).view.read (Elt F)
      (LibRowEpilogue.reluAddRow (n := 100000) (d := 64) (V c main_v40) (V c main_v41)) := by
  show (cfg1.win 2).cut (grid1.coords t) ((dat1 V c).after 2 t) = _
  rw [after1_2]
  unfold out1_2
  rw [View.canon_unit_zero zero_offsets]
  simp only [View.ld_unit_zero (S := S4000x64) zero_offsets, View.ld_unit_zero (S := S1x64) zero_offsets]
  funext j
  obtain ⟨p, q, rfl⟩ : ∃ (p : Fin 4000) (q : Fin 64), j = ix2 p q := ⟨j 0, j 1, eq_ix2 j⟩
  show k1_pay1 (F := F) (iblk1 V c 0 t) (iblk1 V c 1 t) (ix2 p q)
    = LibRowEpilogue.reluAddRow (n := 100000) (d := 64) (V c main_v40) (V c main_v41) (((cfg1.win 2).blk t).view.emb (ix2 p q))
  refine (Bodies.biasRelu_apply _ _ p q).trans ?_
  obtain ⟨-, -, -, -, e4, e5⟩ := block_index t
  have h0 : ((((cfg1.win 2).blk t).view.emb (ix2 p q)) 0).val = t.val * 4000 + p.val := by
    show win1_2.index t (0 : Fin 2) * 4000 + 1 * p.val = _; rw [e4]; omega
  have h1 : (((cfg1.win 2).blk t).view.emb (ix2 p q)) 1 = q :=
    Fin.ext (by show win1_2.index t (1 : Fin 2) * 64 + 1 * q.val = q.val; rw [e5]; omega)
  rw [LibRowEpilogue.reluAddRow_at, h1, agg_block V c t p q _ h0 (congrArg Fin.val h1), bias_block V c t q]

/-- Row r of the result lies in block r / 4000. -/
theorem mem_block (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v42).slice (win1_2.rect t)).set ↔ _
  rw [View.set_slice_whole, Rect.mem_set_unit]
  exact Iff.rfl

/-- The 25 row blocks tile the result. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 25 := N_1
  let t : Fin cfg1.N := ⟨(i 0).val / 4000, by rw [hN]; omega⟩
  obtain ⟨-, -, -, -, e4, e5⟩ := block_index t
  refine ⟨t, flush1_2 t, ?_⟩
  rw [mem_block]
  intro a
  match a with
  | ⟨0, _⟩ => show win1_2.index t (0 : Fin 2) * 4000 ≤ (i 0).val ∧ (i 0).val < win1_2.index t (0 : Fin 2) * 4000 + 4000
              rw [e4]; show (i 0).val / 4000 * 4000 ≤ (i 0).val ∧ (i 0).val < (i 0).val / 4000 * 4000 + 4000; omega
  | ⟨1, _⟩ => show win1_2.index t (1 : Fin 2) * 64 ≤ (i 1).val ∧ (i 1).val < win1_2.index t (1 : Fin 2) * 64 + 64
              rw [e5]; omega

/-- After the call the result array is the epilogue of the aggregated features and the bias row as the call found them. -/
theorem result (c : Dev nD) :
    (dat1 V c).arrAt 2 cfg1.N = LibRowEpilogue.reluAddRow (n := 100000) (d := 64) (V c main_v40) (V c main_v41) :=
  (dat1 V c).arrAt_eq_of_cover 2 _ (fun t _ => flushed_eq V c t) covered

/-- The same, with the two arrays the call found given by name. -/
theorem result_of (c : Dev nD) (h : S100000x64.Idx → F .f32) (b : S1x64.Idx → F .f32)
    (hh : V c main_v40 = h) (hb : V c main_v41 = b) :
    (dat1 V c).arrAt 2 cfg1.N = LibRowEpilogue.reluAddRow (n := 100000) (d := 64) h b := by
  rw [result, hh, hb]

end Cert.Gcn.Epilogue1

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibRowEpilogueHost.lean ====
/-
  A bias row and a rectifier as host operations write them.

  A host program adds a bias by placing the bias vector [d] as a row [1, d] (broadcast_in_dim along axis 1) and spreading that
  row over the n rows (broadcast_in_dim along both axes); another reshapes the bias vector to the row [1, d] and adds that row to
  every row (LibRowEpilogue's addRow). Both rows hold the vector's entry q in
  column q, so the two sums are one array. The maximum with a scalar zero spread over the whole shape is the entrywise
  maximum with zero (LibRowEpilogue's relu). Generic in n, d and the shape, the axis maps passed with their values; stated for
  any float interpretation. Imports LibRowEpilogue.lean and LibHostBroadcast.lean, which have to be copied beside it.
-/
import proofs.«112295_j738734375374_1_alg».proof.Proof.LibRowEpilogue
import proofs.«112295_j738734375374_1_alg».proof.Proof.LibHostBroadcast
import Idealize.ShloMosaic.Lib.ValueLayout

noncomputable section

namespace Cert.LibRowEpilogueHost

open Idealize.ShloMosaic Idealize.ShloMosaic.ValueIdx Cert.LibRowEpilogue Cert.LibHostBroadcast

variable {F : FTy → Type} [FloatOps F]

/-- Adding the reshaped bias row to every row is adding the bias vector placed as a row and spread over the rows. -/
theorem addRow_reshape {n d : Nat} (h : (⟨2, ![n, d]⟩ : Shape).Idx → F .f32) (b : (⟨1, ![d]⟩ : Shape).Idx → F .f32)
    (hs : (⟨1, ![d]⟩ : Shape).ShapeCasts ⟨2, ![1, d]⟩)
    (dims1 : Fin (⟨1, ![d]⟩ : Shape).rank → Fin (⟨2, ![1, d]⟩ : Shape).rank)
    (hd1 : dims1 ⟨0, Nat.one_pos⟩ = ⟨1, Nat.lt_succ_self 1⟩)
    (h1 : (⟨1, ![d]⟩ : Shape).BroadcastsInDim ⟨2, ![1, d]⟩ dims1)
    (dims2 : Fin (⟨2, ![1, d]⟩ : Shape).rank → Fin (⟨2, ![n, d]⟩ : Shape).rank)
    (hd2 : dims2 ⟨1, Nat.lt_succ_self 1⟩ = ⟨1, Nat.lt_succ_self 1⟩)
    (h2 : (⟨2, ![1, d]⟩ : Shape).BroadcastsInDim ⟨2, ![n, d]⟩ dims2) :
    addRow h (shapeCast ⟨2, ![1, d]⟩ b hs)
      = addf (F := F) h (broadcastInDim ⟨2, ![n, d]⟩ dims2 h2 (broadcastInDim ⟨2, ![1, d]⟩ dims1 h1 b)) := by
  funext i
  obtain ⟨p, q, rfl⟩ : ∃ (p : Fin n) (q : Fin d), i = ix2 p q := ⟨i 0, i 1, eq_ix2 i⟩
  show FloatOps.addf (h (ix2 p q)) (shapeCast ⟨2, ![1, d]⟩ b hs (ix2 (0 : Fin 1) q))
    = FloatOps.addf (h (ix2 p q)) (broadcastInDim ⟨2, ![n, d]⟩ dims2 h2 (broadcastInDim ⟨2, ![1, d]⟩ dims1 h1 b) (ix2 p q))
  rw [shapeCast_a_1a_apply, bcast_1b_ab_apply dims2 hd2, bcast_b_1b_apply dims1 hd1]

/-- The entrywise maximum with zero is the maximum with a zero spread over the whole shape. -/
theorem relu_eq {s : Shape} (h : s.Idx → F .f32) (dims : Fin (⟨0, ![]⟩ : Shape).rank → Fin s.rank)
    (hb : (⟨0, ![]⟩ : Shape).BroadcastsInDim s dims) :
    relu h = maximumf (F := F) h (broadcastInDim s dims hb (constant (F := F) ⟨0, ![]⟩ .f32 0x00000000#32)) := by
  funext i
  show _ = FloatOps.maximumf (h i) (broadcastInDim s dims hb (constant (F := F) ⟨0, ![]⟩ .f32 0x00000000#32) i)
  rw [bcast_scalar_apply]
  rfl

end Cert.LibRowEpilogueHost

end
-- ==== Proof.Stages2.lean ====
/-
  The first layer's aggregation and epilogue in the idealized kernel.

  Between the first two calls the kernel program gathers the product's rows by source, scales them by the edge weights and
  adds them up by destination, with the reference's own host operations on the same values; the second call adds the bias
  row and takes the maximum with zero, which is the reference's broadcast sum followed by its maximum with a zero array.
-/
import proofs.«112295_j738734375374_1_alg».proof.Proof.Gen.KernelIdeal.Frame
import proofs.«112295_j738734375374_1_alg».proof.Proof.Gen.ReferenceIdeal.Read
import proofs.«112295_j738734375374_1_alg».proof.Proof.Stages1
import proofs.«112295_j738734375374_1_alg».proof.Proof.Epilogue1Blocks
import proofs.«112295_j738734375374_1_alg».proof.Proof.LibRowEpilogueHost
import Idealize.ShloMosaic.Lib.StableHlo.Run

set_option maxRecDepth 16384

noncomputable section

namespace Cert.Gcn.Stages

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

-- a boundary's contents are compared by the buffer they are read at, never opened
attribute [local irreducible] W2 W4

/-! ## Before the first epilogue call -/

set_option maxHeartbeats 4000000 in
/-- The first aggregation: gather the product's rows by source, scale by the edge weights, add up by destination. -/
theorem agg1_3 : W3 m ρ c (Proc.devRef .tc main_v40) = val_main_v40 (F := Ideal) (m ((c : Thread nD τ).loc main_arg0)) (m ((c : Thread nD τ).loc main_arg1)) (m ((c : Thread nD τ).loc main_arg5)) := by
  show StableHlo.after hostOps1 (W2 m ρ c) (Proc.devRef .tc main_v40) = _
  dsimp only [hostOps1]
  after_results_simp
  rw [lin1_2 m ρ c, src2 m ρ c, dst2 m ρ c, norm2 m ρ c]
  rfl

/-- The first bias as a row. -/
theorem bias1_3 : W3 m ρ c (Proc.devRef .tc main_v41) = shapeCast S1x64 (m ((c : Thread nD τ).loc main_arg2)) Facts₀.shapeCasts_S64_S1x64 := by
  show StableHlo.after hostOps1 (W2 m ρ c) (Proc.devRef .tc main_v41) = _
  dsimp only [hostOps1]
  after_results_simp
  rw [arg2_2 m ρ c]
  rfl

theorem src3 : W3 m ρ c (Proc.devRef .tc main_v3) = val_main_v3 (F := Ideal) (m ((c : Thread nD τ).loc main_arg5)) := by
  show StableHlo.after hostOps1 (W2 m ρ c) (Proc.devRef .tc main_v3) = _
  dsimp only [hostOps1]
  after_results_simp
  exact src2 m ρ c
theorem dst3 : W3 m ρ c (Proc.devRef .tc main_v6) = val_main_v6 (F := Ideal) (m ((c : Thread nD τ).loc main_arg5)) := by
  show StableHlo.after hostOps1 (W2 m ρ c) (Proc.devRef .tc main_v6) = _
  dsimp only [hostOps1]
  after_results_simp
  exact dst2 m ρ c
theorem norm3 : W3 m ρ c (Proc.devRef .tc main_v26) = val_main_v26 (F := Ideal) (m ((c : Thread nD τ).loc main_arg5)) := by
  show StableHlo.after hostOps1 (W2 m ρ c) (Proc.devRef .tc main_v26) = _
  dsimp only [hostOps1]
  after_results_simp
  exact norm2 m ρ c
theorem arg3_3 : W3 m ρ c (Proc.devRef .tc main_arg3) = (m ((c : Thread nD τ).loc main_arg3)) := by
  show StableHlo.after hostOps1 (W2 m ρ c) (Proc.devRef .tc main_arg3) = _
  dsimp only [hostOps1]
  after_results_simp
  exact arg3_2 m ρ c
theorem arg4_3 : W3 m ρ c (Proc.devRef .tc main_arg4) = (m ((c : Thread nD τ).loc main_arg4)) := by
  show StableHlo.after hostOps1 (W2 m ρ c) (Proc.devRef .tc main_arg4) = _
  dsimp only [hostOps1]
  after_results_simp
  exact arg4_2 m ρ c

/-! ## After the first epilogue call -/

/-- The call leaves the reference's hidden features: the aggregate plus the bias, then the maximum with zero. -/
theorem hidden4 : W4 m ρ c (Proc.devRef .tc main_v42) = val_main_v44 (F := Ideal) (m ((c : Thread nD τ).loc main_arg0)) (m ((c : Thread nD τ).loc main_arg1)) (m ((c : Thread nD τ).loc main_arg2)) (m ((c : Thread nD τ).loc main_arg5)) := by
  refine ((W4_arr m ρ c 2).trans (Epilogue1.result_of (V3 m ρ) c _ _ (agg1_3 m ρ c) (bias1_3 m ρ c))).trans ?_
  unfold LibRowEpilogue.reluAddRow
  rw [LibRowEpilogueHost.addRow_reshape _ _ _ ![1] rfl Cert.ReferenceIdeal.Facts₀.bcast_S64_S1x64_1 ![0, 1] rfl Cert.ReferenceIdeal.Facts₀.bcast_S1x64_S100000x64_0_1,
    LibRowEpilogueHost.relu_eq _ ![] Cert.ReferenceIdeal.Facts₀.bcast_S_S100000x64]
  rfl

theorem src4 : W4 m ρ c (Proc.devRef .tc main_v3) = val_main_v3 (F := Ideal) (m ((c : Thread nD τ).loc main_arg5)) :=
  (W4_of_ne m ρ c main_v3 (by decide)).trans (src3 m ρ c)
theorem dst4 : W4 m ρ c (Proc.devRef .tc main_v6) = val_main_v6 (F := Ideal) (m ((c : Thread nD τ).loc main_arg5)) :=
  (W4_of_ne m ρ c main_v6 (by decide)).trans (dst3 m ρ c)
theorem norm4 : W4 m ρ c (Proc.devRef .tc main_v26) = val_main_v26 (F := Ideal) (m ((c : Thread nD τ).loc main_arg5)) :=
  (W4_of_ne m ρ c main_v26 (by decide)).trans (norm3 m ρ c)
theorem arg3_4 : W4 m ρ c (Proc.devRef .tc main_arg3) = (m ((c : Thread nD τ).loc main_arg3)) :=
  (W4_of_ne m ρ c main_arg3 (by decide)).trans (arg3_3 m ρ c)
theorem arg4_4 : W4 m ρ c (Proc.devRef .tc main_arg4) = (m ((c : Thread nD τ).loc main_arg4)) :=
  (W4_of_ne m ρ c main_arg4 (by decide)).trans (arg4_3 m ρ c)

end Cert.Gcn.Stages

end
-- ==== Proof.Linear2Blocks.lean ====
/-
  The second linear layer, from row blocks to the whole array.

  The call walks the 100000 rows of the hidden features in 25 blocks of 4000 rows; at block t it loads rows 4000·t … 4000·t + 3999
  of the hidden features and the whole 64 × 40 weight matrix, and writes back the block's product as rows 4000·t … 4000·t + 3999 of the result.
  A row of a matrix product depends only on the same row of the left factor, so each written block is that block of the
  ONE product of the whole hidden-feature matrix with the weights; the 25 blocks tile the result, so after the call the result
  array is that product.
-/
import proofs.«112295_j738734375374_1_alg».proof.Proof.Gen.KernelIdeal.Frame
import proofs.«112295_j738734375374_1_alg».proof.Proof.LayerBodies
import proofs.«112295_j738734375374_1_alg».proof.Proof.LibDotGeneralPlain
import Idealize.ShloMosaic.Lib.Pipeline.Value

set_option maxRecDepth 16384

noncomputable section

open scoped BigOperators

namespace Cert.Gcn.Linear2

open Idealize.ShloMosaic Idealize.ShloMosaic.TcCoe Idealize.ShloMosaic.ValueIdx Idealize.SL.Sem
open Idealize.ShloMosaic.Pipeline (Dat)
open Cert.KernelIdeal Cert.KernelIdeal.Gen Cert.LibDotGeneralPlain

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at point t: the features' and the result's at row block t, the weights' at the origin. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the features' block at point t is entry (4000·t + p, k) of the feature matrix. -/
theorem feature_block (c : Dev nD) (t : Fin cfg2.N) (p : Fin 4000) (k : Fin 64) (r : Fin 100000) (hr : r.val = t.val * 4000 + p.val) :
    (iblk2 V c 0 t : Vec Ideal S4000x64 .f32) (ix2 p k) = (V c main_v42 : S100000x64.Idx → EReal) (ix2 r k) := by
  obtain ⟨e0, e1, -⟩ := block_index t
  unfold iblk2
  rw [View.read_apply]
  show V c main_v42 _ = V c main_v42 _
  refine congrArg _ (funext fun a => Fin.ext ?_)
  match a with
  | ⟨0, _⟩ => show win2_0.index t (0 : Fin 2) * 4000 + 1 * p.val = r.val; rw [e0, hr]; omega
  | ⟨1, _⟩ => show win2_0.index t (1 : Fin 2) * 64 + 1 * k.val = k.val; rw [e1]; omega

/-- The weights' block at every point is the whole weight matrix. -/
theorem weight_block (c : Dev nD) (t : Fin cfg2.N) (k : Fin 64) (q : Fin 40) :
    (iblk2 V c 1 t : Vec Ideal S64x40 .f32) (ix2 k q) = (V c main_arg3 : S64x40.Idx → EReal) (ix2 k q) := by
  obtain ⟨-, -, e2, e3, -⟩ := block_index t
  unfold iblk2
  rw [View.read_apply]
  show V c main_arg3 _ = V c main_arg3 _
  refine congrArg _ (funext fun a => Fin.ext ?_)
  match a with
  | ⟨0, _⟩ => show win2_1.index t (0 : Fin 2) * 64 + 1 * k.val = k.val; rw [e2]; omega
  | ⟨1, _⟩ => show win2_1.index t (1 : Fin 2) * 40 + 1 * q.val = q.val; rw [e3]; omega

/-- What point t writes back is block t of the product of the whole feature matrix with the weights. -/
theorem flushed_eq (c : Dev nD) (t : Fin cfg2.N) :
    (dat2 V c).flushed 2 t = ((cfg2.win 2).blk t).view.read (Elt Ideal)
      (matProd (M := 100000) (K := 64) (N := 40) (V c main_v42) (V c main_arg3)) := by
  show (cfg2.win 2).cut (grid2.coords t) ((dat2 V c).after 2 t) = _
  rw [after2_2]
  unfold out2_2
  rw [View.canon_unit_zero zero_offsets]
  simp only [View.ld_unit_zero (S := S4000x64) zero_offsets, View.ld_unit_zero (S := S64x40) zero_offsets]
  funext j
  obtain ⟨p, q, rfl⟩ : ∃ (p : Fin 4000) (q : Fin 40), j = ix2 p q := ⟨j 0, j 1, eq_ix2 j⟩
  show k2_pay1 (F := Ideal) (iblk2 V c 0 t) (iblk2 V c 1 t) (ix2 p q)
    = matProd (V c main_v42) (V c main_arg3) (((cfg2.win 2).blk t).view.emb (ix2 p q))
  refine (Bodies.linear2_apply _ _ p q).trans ?_
  obtain ⟨-, -, -, -, e4, e5⟩ := block_index t
  have h0 : ((((cfg2.win 2).blk t).view.emb (ix2 p q)) 0).val = t.val * 4000 + p.val := by
    show win2_2.index t (0 : Fin 2) * 4000 + 1 * p.val = _; rw [e4]; omega
  have h1 : (((cfg2.win 2).blk t).view.emb (ix2 p q)) 1 = q :=
    Fin.ext (by show win2_2.index t (1 : Fin 2) * 40 + 1 * q.val = q.val; rw [e5]; omega)
  unfold matProd
  refine Finset.sum_congr rfl fun k _ => ?_
  rw [feature_block V c t p k _ h0, weight_block V c t k q, h1]

/-- Row r of the result lies in block r / 4000. -/
theorem mem_block (t : Fin cfg2.N) (i : S100000x40.Idx) :
    i ∈ ((cfg2.win 2).blk t).view.set ↔ ∀ a : Fin 2, win2_2.index t a * S4000x40.size a ≤ (i a).val ∧ (i a).val < win2_2.index t a * S4000x40.size a + S4000x40.size a := by
  show i ∈ ((View.whole main_v43).slice (win2_2.rect t)).set ↔ _
  rw [View.set_slice_whole, Rect.mem_set_unit]
  exact Iff.rfl

/-- The 25 row blocks tile the result. -/
theorem covered (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 25 := N_2
  let t : Fin cfg2.N := ⟨(i 0).val / 4000, by rw [hN]; omega⟩
  obtain ⟨-, -, -, -, e4, e5⟩ := block_index t
  refine ⟨t, flush2_2 t, ?_⟩
  rw [mem_block]
  intro a
  match a with
  | ⟨0, _⟩ => show win2_2.index t (0 : Fin 2) * 4000 ≤ (i 0).val ∧ (i 0).val < win2_2.index t (0 : Fin 2) * 4000 + 4000
              rw [e4]; show (i 0).val / 4000 * 4000 ≤ (i 0).val ∧ (i 0).val < (i 0).val / 4000 * 4000 + 4000; omega
  | ⟨1, _⟩ => show win2_2.index t (1 : Fin 2) * 40 ≤ (i 1).val ∧ (i 1).val < win2_2.index t (1 : Fin 2) * 40 + 40
              rw [e5]; omega

/-- After the call the result array is the product of the whole feature matrix, as the call found it, with the weights. -/
theorem result (c : Dev nD) :
    (dat2 V c).arrAt 2 cfg2.N = matProd (M := 100000) (K := 64) (N := 40) (V c main_v42) (V c main_arg3) :=
  (dat2 V c).arrAt_eq_of_cover 2 _ (fun t _ => flushed_eq V c t) covered

/-- The same, with the two arrays the call found given by name. -/
theorem result_of (c : Dev nD) (x : S100000x64.Idx → EReal) (w : S64x40.Idx → EReal)
    (hx : V c main_v42 = x) (hw : V c main_arg3 = w) :
    (dat2 V c).arrAt 2 cfg2.N = matProd (M := 100000) (K := 64) (N := 40) x w := by
  rw [result, hx, hw]

end Cert.Gcn.Linear2

end
-- ==== Proof.Epilogue2Blocks.lean ====
/-
  The second layer's epilogue (bias), from row blocks to the whole array.

  The call walks the 100000 rows of the aggregated features in 25 blocks of 4000 rows; at block t it loads rows
  4000·t … 4000·t + 3999 and the one bias row, adds the bias row to every row of the block and writes the
  block back as rows 4000·t … 4000·t + 3999 of the result. Each entry of the result depends on the same entry of the
  aggregated features and on the bias entry of its column, so each written block is that block of ONE whole-array
  function; the 25 blocks tile the result, so after the call the result array is that function of the two arrays.
  Stated for any float interpretation.
-/
import proofs.«112295_j738734375374_1_alg».proof.Proof.Gen.KernelIdeal.Frame
import proofs.«112295_j738734375374_1_alg».proof.Proof.LayerBodies
import proofs.«112295_j738734375374_1_alg».proof.Proof.LibRowEpilogue
import Idealize.ShloMosaic.Lib.Pipeline.Value

set_option maxRecDepth 16384

noncomputable section

namespace Cert.Gcn.Epilogue2

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- Where each window's block sits at point t: the aggregated features' and the result's at row block t, the bias row's at the origin. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of the aggregated features' block at point t is their entry (4000·t + p, q). -/
theorem agg_block (c : Dev nD) (t : Fin cfg3.N) (p : Fin 4000) (q : Fin 40) (i : S100000x40.Idx)
    (h0 : (i 0).val = t.val * 4000 + p.val) (h1 : (i 1).val = q.val) :
    (iblk3 V c 0 t : Vec F S4000x40 .f32) (ix2 p q) = (V c main_v56 : S100000x40.Idx → F .f32) i := by
  obtain ⟨e0, e1, -⟩ := block_index t
  unfold iblk3
  rw [View.read_apply]
  show V c main_v56 _ = V c main_v56 _
  refine congrArg _ (funext fun a => Fin.ext ?_)
  match a with
  | ⟨0, _⟩ => show win3_0.index t (0 : Fin 2) * 4000 + 1 * p.val = (i 0).val; rw [e0, h0]; omega
  | ⟨1, _⟩ => show win3_0.index t (1 : Fin 2) * 40 + 1 * q.val = (i 1).val; rw [e1, h1]; omega

/-- The bias window's block at every point is the whole bias row. -/
theorem bias_block (c : Dev nD) (t : Fin cfg3.N) (q : Fin 40) :
    (iblk3 V c 1 t : Vec F S1x40 .f32) (ix2 (0 : Fin 1) q) = (V c main_v57 : S1x40.Idx → F .f32) (ix2 (0 : Fin 1) q) := by
  obtain ⟨-, -, e2, e3, -⟩ := block_index t
  unfold iblk3
  rw [View.read_apply]
  show V c main_v57 _ = V c main_v57 _
  refine congrArg _ (funext fun a => Fin.ext ?_)
  match a with
  | ⟨0, _⟩ => show win3_1.index t (0 : Fin 2) * 1 + 1 * 0 = 0; rw [e2]
  | ⟨1, _⟩ => show win3_1.index t (1 : Fin 2) * 40 + 1 * q.val = q.val; rw [e3]; omega

/-- What point t writes back is block t of the epilogue of the whole arrays. -/
theorem flushed_eq (c : Dev nD) (t : Fin cfg3.N) :
    (dat3 V c).flushed 2 t = ((cfg3.win 2).blk t).view.read (Elt F)
      (LibRowEpilogue.addRow (n := 100000) (d := 40) (V c main_v56) (V c main_v57)) := by
  show (cfg3.win 2).cut (grid3.coords t) ((dat3 V c).after 2 t) = _
  rw [after3_2]
  unfold out3_2
  rw [View.canon_unit_zero zero_offsets]
  simp only [View.ld_unit_zero (S := S4000x40) zero_offsets, View.ld_unit_zero (S := S1x40) zero_offsets]
  funext j
  obtain ⟨p, q, rfl⟩ : ∃ (p : Fin 4000) (q : Fin 40), j = ix2 p q := ⟨j 0, j 1, eq_ix2 j⟩
  show k3_pay1 (F := F) (iblk3 V c 0 t) (iblk3 V c 1 t) (ix2 p q)
    = LibRowEpilogue.addRow (n := 100000) (d := 40) (V c main_v56) (V c main_v57) (((cfg3.win 2).blk t).view.emb (ix2 p q))
  refine (Bodies.bias_apply _ _ p q).trans ?_
  obtain ⟨-, -, -, -, e4, e5⟩ := block_index t
  have h0 : ((((cfg3.win 2).blk t).view.emb (ix2 p q)) 0).val = t.val * 4000 + p.val := by
    show win3_2.index t (0 : Fin 2) * 4000 + 1 * p.val = _; rw [e4]; omega
  have h1 : (((cfg3.win 2).blk t).view.emb (ix2 p q)) 1 = q :=
    Fin.ext (by show win3_2.index t (1 : Fin 2) * 40 + 1 * q.val = q.val; rw [e5]; omega)
  rw [LibRowEpilogue.addRow_at, h1, agg_block V c t p q _ h0 (congrArg Fin.val h1), bias_block V c t q]

/-- Row r of the result lies in block r / 4000. -/
theorem mem_block (t : Fin cfg3.N) (i : S100000x40.Idx) :
    i ∈ ((cfg3.win 2).blk t).view.set ↔ ∀ a : Fin 2, win3_2.index t a * S4000x40.size a ≤ (i a).val ∧ (i a).val < win3_2.index t a * S4000x40.size a + S4000x40.size a := by
  show i ∈ ((View.whole main_v58).slice (win3_2.rect t)).set ↔ _
  rw [View.set_slice_whole, Rect.mem_set_unit]
  exact Iff.rfl

/-- The 25 row blocks tile the result. -/
theorem covered (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 25 := N_3
  let t : Fin cfg3.N := ⟨(i 0).val / 4000, by rw [hN]; omega⟩
  obtain ⟨-, -, -, -, e4, e5⟩ := block_index t
  refine ⟨t, flush3_2 t, ?_⟩
  rw [mem_block]
  intro a
  match a with
  | ⟨0, _⟩ => show win3_2.index t (0 : Fin 2) * 4000 ≤ (i 0).val ∧ (i 0).val < win3_2.index t (0 : Fin 2) * 4000 + 4000
              rw [e4]; show (i 0).val / 4000 * 4000 ≤ (i 0).val ∧ (i 0).val < (i 0).val / 4000 * 4000 + 4000; omega
  | ⟨1, _⟩ => show win3_2.index t (1 : Fin 2) * 40 ≤ (i 1).val ∧ (i 1).val < win3_2.index t (1 : Fin 2) * 40 + 40
              rw [e5]; omega

/-- After the call the result array is the epilogue of the aggregated features and the bias row as the call found them. -/
theorem result (c : Dev nD) :
    (dat3 V c).arrAt 2 cfg3.N = LibRowEpilogue.addRow (n := 100000) (d := 40) (V c main_v56) (V c main_v57) :=
  (dat3 V c).arrAt_eq_of_cover 2 _ (fun t _ => flushed_eq V c t) covered

/-- The same, with the two arrays the call found given by name. -/
theorem result_of (c : Dev nD) (h : S100000x40.Idx → F .f32) (b : S1x40.Idx → F .f32)
    (hh : V c main_v56 = h) (hb : V c main_v57 = b) :
    (dat3 V c).arrAt 2 cfg3.N = LibRowEpilogue.addRow (n := 100000) (d := 40) h b := by
  rw [result, hh, hb]

end Cert.Gcn.Epilogue2

end
-- ==== Proof.Stages3.lean ====
/-
  The second layer in the idealized kernel, to the result.

  The third call leaves the product of the hidden features with the second weights, the reference's second matrix product;
  the host operations after it aggregate as before; the last call adds the second bias row, which is the reference's last
  broadcast sum. So the kernel program's result array ends holding the reference's result stage.
-/
import proofs.«112295_j738734375374_1_alg».proof.Proof.Gen.KernelIdeal.Frame
import proofs.«112295_j738734375374_1_alg».proof.Proof.Gen.ReferenceIdeal.Read
import proofs.«112295_j738734375374_1_alg».proof.Proof.Stages2
import proofs.«112295_j738734375374_1_alg».proof.Proof.Linear2Blocks
import proofs.«112295_j738734375374_1_alg».proof.Proof.Epilogue2Blocks
import proofs.«112295_j738734375374_1_alg».proof.Proof.LibRowEpilogueHost
import proofs.«112295_j738734375374_1_alg».proof.Proof.LibDotGeneralPlain
import Idealize.ShloMosaic.Lib.StableHlo.Run

set_option maxRecDepth 16384

noncomputable section

namespace Cert.Gcn.Stages

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

-- a boundary's contents are compared by the buffer they are read at, never opened
attribute [local irreducible] W4 W5

/-! ## After the second linear call -/

/-- The call leaves the reference's second product. -/
theorem lin2_5 : W5 m ρ c (Proc.devRef .tc main_v43) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine ((W5_arr m ρ c 2).trans (Linear2.result_of (V4 m ρ) c _ _ (hidden4 m ρ c) (arg3_4 m ρ c))).trans ?_
  exact (Cert.LibDotGeneralPlain.dotGeneral_plain_eq _ rfl none .single _ _).symm

theorem src5 : W5 m ρ c (Proc.devRef .tc main_v3) = val_main_v3 (F := Ideal) (m ((c : Thread nD τ).loc main_arg5)) :=
  (W5_of_ne m ρ c main_v3 (by decide)).trans (src4 m ρ c)
theorem dst5 : W5 m ρ c (Proc.devRef .tc main_v6) = val_main_v6 (F := Ideal) (m ((c : Thread nD τ).loc main_arg5)) :=
  (W5_of_ne m ρ c main_v6 (by decide)).trans (dst4 m ρ c)
theorem norm5 : W5 m ρ c (Proc.devRef .tc main_v26) = val_main_v26 (F := Ideal) (m ((c : Thread nD τ).loc main_arg5)) :=
  (W5_of_ne m ρ c main_v26 (by decide)).trans (norm4 m ρ c)
theorem arg4_5 : W5 m ρ c (Proc.devRef .tc main_arg4) = (m ((c : Thread nD τ).loc main_arg4)) :=
  (W5_of_ne m ρ c main_arg4 (by decide)).trans (arg4_4 m ρ c)

/-! ## Before the second epilogue call -/

set_option maxHeartbeats 4000000 in
/-- The second aggregation. -/
theorem agg2_6 : W6 m ρ c (Proc.devRef .tc main_v56) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  show StableHlo.after hostOps3 (W5 m ρ c) (Proc.devRef .tc main_v56) = _
  dsimp only [hostOps3]
  after_results_simp
  rw [lin2_5 m ρ c, src5 m ρ c, dst5 m ρ c, norm5 m ρ c]
  rfl

/-- The second bias as a row. -/
theorem bias2_6 : W6 m ρ c (Proc.devRef .tc main_v57) = shapeCast S1x40 (m ((c : Thread nD τ).loc main_arg4)) Facts₀.shapeCasts_S40_S1x40 := by
  show StableHlo.after hostOps3 (W5 m ρ c) (Proc.devRef .tc main_v57) = _
  dsimp only [hostOps3]
  after_results_simp
  rw [arg4_5 m ρ c]
  rfl

/-! ## After the second epilogue call -/

/-- The call leaves the reference's result: the second aggregate plus the bias. -/
theorem result7 : W7 m ρ c (Proc.devRef .tc main_v58)
    = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W7_arr m ρ c 2).trans (Epilogue2.result_of (V6 m ρ) c _ _ (agg2_6 m ρ c) (bias2_6 m ρ c))).trans ?_
  rw [LibRowEpilogueHost.addRow_reshape _ _ _ ![1] rfl Cert.ReferenceIdeal.Facts₀.bcast_S40_S1x40_1 ![0, 1] rfl Cert.ReferenceIdeal.Facts₀.bcast_S1x40_S100000x40_0_1]
  rfl

end Cert.Gcn.Stages

end
-- ==== Proof.lean ====
/-
  A two-layer graph convolution: the Pallas kernel program against its jnp reference, equal on the extended reals.

  Both programs build the edge lists with self-loops, the degrees d and the edge weights d(src)^(-1/2) · d(dst)^(-1/2) by
  the same host operations, and both run, twice, "linear layer, gather rows by source, scale by the edge weight, add up by
  destination, add the bias" (with a maximum with zero after the first). The kernel program computes each linear layer and
  each bias epilogue by a call that walks the 100000 rows in 25 blocks of 4000; the reference computes them by one
  matrix product and one broadcast sum. On the extended reals the change of format before the kernel's products is the
  identity and a product's row depends only on the same row of the left factor, so each call leaves exactly the array
  the reference's operation produces (Linear1Blocks, Linear2Blocks, Epilogue1Blocks, Epilogue2Blocks), and, boundary by
  boundary, the kernel program's buffers hold the reference's stages (Stages1, Stages2, Stages3); the last call leaves the reference's result.
  No algebraic law beyond the definition of a matrix product is used, so the precondition is never opened.

  The three frame claims are the generated frames (the reference's is its generated run with the result dropped); the ideal
  pass rewrote nothing, so `preserves` is trivial.
-/
import proofs.«112295_j738734375374_1_alg».proof.Defs
import proofs.«112295_j738734375374_1_alg».proof.Proof.Gen.Kernel
import proofs.«112295_j738734375374_1_alg».proof.Proof.Gen.Kernel.Skeleton
import proofs.«112295_j738734375374_1_alg».proof.Proof.Gen.Kernel.Launch
import proofs.«112295_j738734375374_1_alg».proof.Proof.Gen.Kernel.Points
import proofs.«112295_j738734375374_1_alg».proof.Proof.Gen.Kernel.Frame
import proofs.«112295_j738734375374_1_alg».proof.Proof.Gen.KernelIdeal
import proofs.«112295_j738734375374_1_alg».proof.Proof.Gen.KernelIdeal.Skeleton
import proofs.«112295_j738734375374_1_alg».proof.Proof.Gen.KernelIdeal.Launch
import proofs.«112295_j738734375374_1_alg».proof.Proof.Gen.KernelIdeal.Points
import proofs.«112295_j738734375374_1_alg».proof.Proof.Gen.KernelIdeal.Frame
import proofs.«112295_j738734375374_1_alg».proof.Proof.Gen.ReferenceIdeal
import proofs.«112295_j738734375374_1_alg».proof.Proof.Gen.Pre_finite_inputs
import proofs.«112295_j738734375374_1_alg».proof.Proof.Gen.ReferenceIdeal.Run
import proofs.«112295_j738734375374_1_alg».proof.Proof.Gen.ReferenceIdeal.Read
import proofs.«112295_j738734375374_1_alg».proof.Proof.KernelRun
import proofs.«112295_j738734375374_1_alg».proof.Proof.Stages3
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (agreeing) arguments in their result arrays. -/
theorem algebraic : Cert.algebraic_KernelIdeal_ReferenceIdeal := by
  intro m ρ m' ρ' _ hagree
  refine ⟨fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.Gcn.Run.run_named (F := Ideal) m ρ)
    exact ⟨(h c _ (Cert.KernelIdeal.Gen.mem_uc Cert.KernelIdeal.main_v58 (by decide))).trans (Cert.Gcn.Stages.result7 m ρ c),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
